-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1600000x1 : S_.BroadcastsInDim S1600000x1 (![] : Fin 0 → Fin S1600000x1.rank)
  reducesTo_S1600000x1_S_d0_1 : S1600000x1.ReducesTo [0, 1] S_

variable [Facts]

def fn_part1 {F : FTy → Type} [FloatOps F] (main_arg4 : FVec F S1600000x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000x1 .f32 := Host.absf main_arg4
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  main_v23

def fn {F : FTy → Type} [FloatOps F] (main_arg0 : FVec F S100000x64 .f32) (main_arg1 : FVec F S1600000x64 .f32) (main_arg2 : FVec F S100000x1 .f32) (main_arg3 : FVec F S64x64 .f32) (main_arg4 : FVec F S1600000x1 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S800000x128 : Shape := ⟨2, ![800000, 128]⟩
abbrev S_ : Shape := ⟨0, ![]⟩
abbrev S128x128 : Shape := ⟨2, ![128, 128]⟩
abbrev S1 : Shape := ⟨1, ![1]⟩
abbrev S2 : Shape := ⟨1, ![2]⟩
abbrev S10000x128 : Shape := ⟨2, ![10000, 128]⟩

abbrev nBuf : Space → Nat
  | .hbm => 54
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S100000x1, .f32⟩
  | .hbm, ⟨3, _⟩ => ⟨S64x64, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S800000x128, .f32⟩
  | .hbm, ⟨8, _⟩ => ⟨S64x64, .f32⟩
  | .hbm, ⟨9, _⟩ => ⟨S64x64, .bf16⟩
  | .hbm, ⟨10, _⟩ => ⟨S_, .bf16⟩
  | .hbm, ⟨11, _⟩ => ⟨S128x128, .bf16⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x128, .bf16⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x128, .bf16⟩
  | .hbm, ⟨24, _⟩ => ⟨S800000x128, .f32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x1, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1600000x64_S800000x128 : S1600000x64.ShapeCasts S800000x128
  transposes_S64x64_S64x64_1_0 : S64x64.Transposes [1, 0] S64x64
  bitsLt_bf16_f32 : FTy.bits .bf16 < FTy.bits .f32
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S800000x128_S1600000x64 : S800000x128.ShapeCasts S1600000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S128x128_S2_S64x64_01_n_01_0_wf : ScatterDims.WF S128x128 S2 S64x64 [0, 1] [] [0, 1] 0
  dot_S10000x128_S128x128_S10000x128_1_0_0_1_n_n_wf : DotDims.WF S10000x128 S128x128 S10000x128 [1] [0] [0] [1] [] []
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S800000x128.size a
  hwx0_2 : ∀ i : grid0.Coords, EltTy.bits .f32 = 32 ∨ (Rect.block (s := S800000x128) S10000x128.size (cc0_transform_2 i) (hinb0_2 i)).WholeWords (EltTy.packing .f32)

variable [Facts₀]

def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S100000x1, .f32⟩
  | .hbm, ⟨3, _⟩ => ⟨S64x64, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S1600000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x1, .f32⟩
  | .hbm, ⟨27, _⟩ => ⟨S1600000x1, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1600000x64_S64x64_S1600000x64_1_1_0_0_n_n_wf : DotDims.WF S1600000x64 S64x64 S1600000x64 [1] [1] [0] [0] [] []
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1

variable [Facts₀]

def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Payload.lean ====
/-
  What one grid point of the kernel computes.

  The body loads a block of 10000 packed rows (128 lanes each) and the whole 128 × 128 weight, changes the rows'
  format (the identity on the extended reals), and multiplies into a zero accumulator. Its stored value at
  `(p, q)` is the sum over the 128 lanes `k` of row `p`'s lane `k` times the weight's entry `(k, q)`.
-/
import proofs.«173776_j84335977825023_2_alg».proof.Proof.Gen.KernelIdeal.Skeleton
import proofs.«173776_j84335977825023_2_alg».proof.Proof.LibMatDot
import Idealize.ShloMosaic.Lib.Pipeline.Value

noncomputable section

namespace Cert.KernelIdeal.Payload

open Cert.KernelIdeal Cert.KernelIdeal.Gen Idealize.ShloMosaic Idealize.ShloMosaic.ValueIdx Cert.Lib
open scoped BigOperators

/-- Packed rows `X` (128 lanes each) times a 128 × 128 weight `BD`, entry by entry: what the kernel's grid computes,
    block of rows by block of rows. -/
def packedProduct (X : S800000x128.Idx → EReal) (BD : S128x128.Idx → EReal) : S800000x128.Idx → EReal :=
  fun i => ∑ k : Fin 128, X (ix2 (i 0) k) * BD (ix2 k (i 1))

/-- The body's product at row `p` and lane `q` of the block. -/
theorem pay_apply (x0 : FVec Ideal S10000x128 .f32) (x1 : FVec Ideal S128x128 .bf16) (p : Fin 10000) (q : Fin 128) :
    k0_pay1 (F := Ideal) x0 x1 (ix2 p q) = ∑ k : Fin 128, x0 (ix2 p k) * x1 (ix2 k q) := by
  unfold k0_pay1
  refine (matmul_plain_zero_apply (a := 10000) (K := 128) (b := 128)
    dot_S10000x128_S128x128_S10000x128_1_0_0_1_n_n_wf none _ _ p q).trans ?_
  refine Finset.sum_congr rfl fun k _ => ?_
  rw [shapeCast_self, shapeCast_self]
  rfl

/-- The same at any index of the block, by its two coordinates. -/
theorem pay_at (x0 : FVec Ideal S10000x128 .f32) (x1 : FVec Ideal S128x128 .bf16) (j : S10000x128.Idx) :
    k0_pay1 (F := Ideal) x0 x1 j = ∑ k : Fin 128, x0 (ix2 (j 0) k) * x1 (ix2 k (j 1)) := by
  obtain ⟨p, q, rfl⟩ : ∃ (p : Fin 10000) (q : Fin 128), j = ix2 p q := ⟨j 0, j 1, eq_ix2 j⟩
  exact pay_apply x0 x1 p q

end Cert.KernelIdeal.Payload

end
-- ==== Proof.Region.lean ====
/-
  The array the kernel's region leaves: every packed row times the weight.

  The region runs over 80 grid points. Point `t` is handed rows `10000·t … 10000·t + 9999` of the packed
  `[800000, 128]` array and the whole `[128, 128]` weight, and writes back the same rows of the result. So row `P` of
  the result is written exactly once, by point `P / 10000`, and the whole result is one function of the two arrays
  the region finds: entry `(P, c)` is the sum over the lanes `k` of `X (P, k) · BD (k, c)`.
-/
import proofs.«173776_j84335977825023_2_alg».proof.Proof.Gen.KernelIdeal.Frame
import proofs.«173776_j84335977825023_2_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Payload (packedProduct)
open scoped BigOperators

variable (m : (ℓ : Loc nD τ sig) → Buf (Elt Ideal) ℓ)

theorem hz : (![0, 0] : Fin 2 → Nat) = fun _ => 0 := funext fun a => by fin_cases a <;> rfl

/-- The block indices of the three windows at point `t`: the rows' and the result's block is `(t, 0)`, the weight's
    is `(0, 0)` throughout. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed_eq (c : Dev nD) (t : Fin cfg0.N) :
    (dats m 0 c).flushed 2 t
      = ((cfg0.win 2).blk t).view.read (Elt Ideal) (packedProduct (V m c main_v0) (V m c main_v11)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (iblk m c 0 t) (iblk m c 1 t) j
    = packedProduct (V m c main_v0) (V m c main_v11) (((cfg0.win 2).blk t).view.emb j)
  refine (Payload.pay_at (iblk m c 0 t) (iblk m c 1 t) j).trans ?_
  unfold packedProduct
  refine Finset.sum_congr rfl fun k _ => ?_
  refine congrArg₂ (fun a b : EReal => a * b) ?_ ?_
  · show V m c main_v0 (((cfg0.win 0).blk t).view.emb (ix2 (n0 := 10000) (n1 := 128) (j 0) k))
      = V m c main_v0 (ix2 ((((cfg0.win 2).blk t).view.emb j) 0) k)
    refine congrArg (V m c main_v0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V m c main_v11 (((cfg0.win 1).blk t).view.emb (ix2 (n0 := 128) (n1 := 128) k (j 1)))
      = V m c main_v11 (ix2 k ((((cfg0.win 2).blk t).view.emb j) 1))
    refine congrArg (V m c main_v11) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result is in point `t`'s block iff each coordinate is in the block's range on its axis. -/
theorem mem_blk (t : Fin cfg0.N) (i : S800000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v12).slice (win0_2.rect t)).set ↔ _
  rw [View.set_slice_whole, Rect.mem_set_unit]
  exact Iff.rfl

/-- Row `P` of the result lies in the block of point `P / 10000`: the blocks cover the array. -/
theorem cover (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  have ht : (i 0).val / 10000 < cfg0.N := by show _ < 80; omega
  obtain ⟨e0, e1, e2, e3, e4, e5⟩ := idx_facts ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4']; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- The result array after the region. -/
theorem final (c : Dev nD) :
    (dats m 0 c).arrAt 2 cfg0.N = packedProduct (V m c main_v0) (V m c main_v11) :=
  (dats m 0 c).arrAt_eq_of_cover 2 _ (fun t _ => flushed_eq m c t) cover

end Cert.KernelIdeal.Region

end
-- ==== Proof.LibScatterSet.lean ====
/-
  A scatter whose body returns the update (an array with a block overwritten), read at an index.

  The host's scatter is a left fold over the update's positions, in row-major order: a position lands on at most
  one element of the operand and replaces it by the body's value. Read at ONE element of the operand the fold is
  simple: if no position lands there the element is the operand's; if some position lands there, and every position
  that does carries the same value, the element is that value (the body returning the update).

  For a rank-2 update `[a, b]` whose window is written at one start `(r0, c0)` of an `[A, B]` operand — a block placed
  inside a matrix — position `(p, q)` of the update lands on `(r0 + p, c0 + q)`, distinct positions on distinct
  elements: the result is the update inside the block and the operand outside it.
-/
import Idealize.ShloMosaic.PureOps.ShapeOps
import Idealize.ShloMosaic.Lib.ValueIdx

noncomputable section

namespace Cert.Lib

open Idealize.ShloMosaic Idealize.ShloMosaic.ValueIdx

/-! ## A fold read at one position -/

/-- A fold none of whose steps touches position `i'` leaves the start value there. -/
theorem foldl_untouched {ι κ α : Type} (step : (κ → α) → ι → (κ → α)) (P : ι → Prop) (i' : κ)
    (hstep : ∀ r n, P n → step r n i' = r i') (L : List ι) :
    ∀ x : κ → α, (∀ n ∈ L, P n) → L.foldl step x i' = x i' := by
  induction L with
  | nil => intro x _; rfl
  | cons b L ih =>
    intro x h
    rw [List.foldl_cons, ih (step x b) (fun n hn => h n (List.mem_cons.2 (Or.inr hn)))]
    exact hstep x b (h b (List.mem_cons.2 (Or.inl rfl)))

/-- A fold whose steps either leave position `i'` alone (`Q` fails) or set it to `v n` (`Q n`): when some step of the
    list sets it and all the steps that set it carry the value `a`, the fold has `a` there. -/
theorem foldl_set {ι κ α : Type} (step : (κ → α) → ι → (κ → α)) (Q : ι → Prop) (v : ι → α) (i' : κ)
    (hmiss : ∀ r n, ¬ Q n → step r n i' = r i') (hhit : ∀ r n, Q n → step r n i' = v n) (a : α) (L : List ι) :
    ∀ x : κ → α, (∃ n ∈ L, Q n) → (∀ n ∈ L, Q n → v n = a) → L.foldl step x i' = a := by
  induction L with
  | nil => intro x hex _; obtain ⟨n, hn, _⟩ := hex; simp at hn
  | cons b L ih =>
    intro x hex hv
    rw [List.foldl_cons]
    by_cases hL : ∃ n ∈ L, Q n
    · exact ih (step x b) hL (fun n hn => hv n (List.mem_cons.2 (Or.inr hn)))
    · have hnone : ∀ n ∈ L, ¬ Q n := fun n hn hq => hL ⟨n, hn, hq⟩
      rw [foldl_untouched step (fun n => ¬ Q n) i' hmiss L (step x b) hnone]
      obtain ⟨n, hn, hq⟩ := hex
      rcases List.mem_cons.1 hn with rfl | hn'
      · rw [hhit x n hq]; exact hv n (List.mem_cons.2 (Or.inl rfl)) hq
      · exact absurd hq (hnone n hn')

/-! ## The host's scatter read at one element -/

variable {s si u : Shape} {w : Nat} {α : Type}

/-- An element no update position lands on keeps the operand's value, whatever the body. -/
theorem scatter_apply_of_miss (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  refine foldl_untouched _ (fun n => d.resultIdx? (u.rowMajor.symm n) idx ≠ some i') i' ?_ _ x (fun n _ => h _)
  intro r n hn
  generalize d.resultIdx? (u.rowMajor.symm n) idx = o at hn ⊢
  cases o with
  | none => rfl
  | some i =>
    show (if i' = i then _ else r i') = r i'
    rw [if_neg (fun e => hn (congrArg some e.symm))]

/-- With the body returning the update: an element some position `j₀` lands on, all positions landing there carrying
    the value of `j₀`, holds that value. -/
theorem scatter_set_apply_of_hit (d : ScatterDims s si u) (x : s.Idx → α) (idx : IVec si w) (upd : u.Idx → α)
    (i' : s.Idx) (j₀ : u.Idx) (h₀ : d.resultIdx? j₀ idx = some i')
    (hsame : ∀ j, d.resultIdx? j idx = some i' → upd j = upd j₀) :
    Host.scatter d (fun _ b => b) x idx upd i' = upd j₀ := by
  unfold Host.scatter
  refine foldl_set _ (fun n => d.resultIdx? (u.rowMajor.symm n) idx = some i') (fun n => upd (u.rowMajor.symm n)) i'
    ?_ ?_ (upd j₀) _ x ?_ ?_
  · intro r n hn
    generalize d.resultIdx? (u.rowMajor.symm n) idx = o at hn ⊢
    cases o with
    | none => rfl
    | some i =>
      show (if i' = i then _ else r i') = r i'
      rw [if_neg (fun e => hn (congrArg some e.symm))]
  · intro r n hn
    generalize d.resultIdx? (u.rowMajor.symm n) idx = o at hn ⊢
    cases o with
    | none => exact absurd hn (by simp)
    | some i =>
      have e : i = i' := Option.some.inj hn
      show (if i' = i then upd (u.rowMajor.symm n) else r i') = upd (u.rowMajor.symm n)
      rw [if_pos e.symm]
  · exact ⟨u.rowMajor j₀, List.mem_finRange _, by rw [Equiv.symm_apply_apply]; exact h₀⟩
  · intro n _ hn
    exact hsame _ hn

/-! ## A block written into a matrix -/

section Block

variable {A B a b : ℕ} (d : ScatterDims ⟨2, ![A, B]⟩ si ⟨2, ![a, b]⟩) (idx : IVec si w) (r0 c0 : ℕ)
  (hs0 : ∀ j, d.start j idx 0 = (r0 : ℤ)) (hs1 : ∀ j, d.start j idx 1 = (c0 : ℤ))
  (hw0 : ∀ j, d.window j 0 = (j 0).val) (hw1 : ∀ j, d.window j 1 = (j 1).val)
  (hA : r0 + a ≤ A) (hB : c0 + b ≤ B)

include hs0 hs1 hw0 hw1 hA hB

/-- Position `j` of the update lands on `(r0 + j 0, c0 + j 1)`: the window starts at `(r0, c0)` for every position and
    the block fits. -/
theorem resultIdx_block2 (j : (⟨2, ![a, b]⟩ : Shape).Idx) :
    d.resultIdx? j idx = some (ix2 (⟨r0 + (j 0).val, by have := idx2_lt0 j; omega⟩ : Fin A)
      (⟨c0 + (j 1).val, by have := idx2_lt1 j; omega⟩ : Fin B)) := by
  have h0 := idx2_lt0 j
  have h1 := idx2_lt1 j
  unfold ScatterDims.resultIdx?
  rw [dif_pos (by
    intro ax
    match ax with
    | ⟨0, _⟩ =>
      show 0 ≤ d.start j idx 0 + ((d.window j 0 : ℕ) : ℤ) ∧ d.start j idx 0 + ((d.window j 0 : ℕ) : ℤ) < ((A : ℕ) : ℤ)
      rw [hs0, hw0]; constructor <;> omega
    | ⟨1, _⟩ =>
      show 0 ≤ d.start j idx 1 + ((d.window j 1 : ℕ) : ℤ) ∧ d.start j idx 1 + ((d.window j 1 : ℕ) : ℤ) < ((B : ℕ) : ℤ)
      rw [hs1, hw1]; constructor <;> omega)]
  refine congrArg some (funext fun ax => Fin.ext ?_)
  match ax with
  | ⟨0, _⟩ =>
    show (d.start j idx 0 + ((d.window j 0 : ℕ) : ℤ)).toNat = r0 + (j 0).val
    rw [hs0, hw0]; omega
  | ⟨1, _⟩ =>
    show (d.start j idx 1 + ((d.window j 1 : ℕ) : ℤ)).toNat = c0 + (j 1).val
    rw [hs1, hw1]; omega

/-- Inside the block the result is the update. -/
theorem scatter_block2_inside (x : (⟨2, ![A, B]⟩ : Shape).Idx → α) (upd : (⟨2, ![a, b]⟩ : Shape).Idx → α)
    (p : Fin a) (q : Fin b) :
    Host.scatter d (fun _ v => v) x idx upd
      (ix2 (⟨r0 + p.val, by have := p.isLt; omega⟩ : Fin A) (⟨c0 + q.val, by have := q.isLt; omega⟩ : Fin B))
      = upd (ix2 p q) := by
  refine scatter_set_apply_of_hit d x idx upd _ (ix2 p q)
    (resultIdx_block2 d idx r0 c0 hs0 hs1 hw0 hw1 hA hB (ix2 p q)) ?_
  intro j hj
  rw [resultIdx_block2 d idx r0 c0 hs0 hs1 hw0 hw1 hA hB j] at hj
  have e := Option.some.inj hj
  have e0 : r0 + (j 0).val = r0 + p.val := congrArg (fun i : (⟨2, ![A, B]⟩ : Shape).Idx => (i 0).val) e
  have e1 : c0 + (j 1).val = c0 + q.val := congrArg (fun i : (⟨2, ![A, B]⟩ : Shape).Idx => (i 1).val) e
  have hj0 : j 0 = p := Fin.ext (by omega)
  have hj1 : j 1 = q := Fin.ext (by omega)
  have hjeq : j = ix2 p q := funext fun ax => by
    match ax with
    | ⟨0, _⟩ => exact hj0
    | ⟨1, _⟩ => exact hj1
  rw [hjeq]

/-- The same at any element `(P, Q)` known to be the block's `(p, q)`. -/
theorem scatter_block2_inside_at (x : (⟨2, ![A, B]⟩ : Shape).Idx → α) (upd : (⟨2, ![a, b]⟩ : Shape).Idx → α)
    (P : Fin A) (Q : Fin B) (p : Fin a) (q : Fin b) (hP : P.val = r0 + p.val) (hQ : Q.val = c0 + q.val) :
    Host.scatter d (fun _ v => v) x idx upd (ix2 P Q) = upd (ix2 p q) := by
  have hp : r0 + p.val < A := Nat.lt_of_lt_of_le (Nat.add_lt_add_left p.isLt r0) hA
  have hq : c0 + q.val < B := Nat.lt_of_lt_of_le (Nat.add_lt_add_left q.isLt c0) hB
  have eP : P = ⟨r0 + p.val, hp⟩ := Fin.ext hP
  have eQ : Q = ⟨c0 + q.val, hq⟩ := Fin.ext hQ
  rw [eP, eQ]
  exact scatter_block2_inside d idx r0 c0 hs0 hs1 hw0 hw1 hA hB x upd p q

/-- Outside the block the result is the operand. -/
theorem scatter_block2_outside (x : (⟨2, ![A, B]⟩ : Shape).Idx → α) (upd : (⟨2, ![a, b]⟩ : Shape).Idx → α)
    (P : Fin A) (Q : Fin B) (hout : ¬ ((r0 ≤ P.val ∧ P.val < r0 + a) ∧ (c0 ≤ Q.val ∧ Q.val < c0 + b))) :
    Host.scatter d (fun _ v => v) x idx upd (ix2 P Q) = x (ix2 P Q) := by
  refine scatter_apply_of_miss d _ x idx upd _ fun j hj => hout ?_
  rw [resultIdx_block2 d idx r0 c0 hs0 hs1 hw0 hw1 hA hB j] at hj
  have e := Option.some.inj hj
  have e0 : r0 + (j 0).val = P.val := congrArg (fun i : (⟨2, ![A, B]⟩ : Shape).Idx => (i 0).val) e
  have e1 : c0 + (j 1).val = Q.val := congrArg (fun i : (⟨2, ![A, B]⟩ : Shape).Idx => (i 1).val) e
  have h0 := idx2_lt0 j
  have h1 := idx2_lt1 j
  omega

end Block

end Cert.Lib

end
-- ==== Proof.Weights.lean ====
/-
  The weight matrix the kernel multiplies by: two copies of `Wᵀ` on the diagonal of a 128 × 128 matrix of zeros.

  The host builds it from `W` (64 × 64): transpose, change of format (the identity on the extended reals), and two
  block writes into zeros, one at `(0, 0)` and one at `(64, 64)`. Read at `(k, c)` it is `W (c, k)` on the upper-left
  block, `W (c - 64, k - 64)` on the lower-right block, and `0` on the two off-diagonal blocks.
-/
import proofs.«173776_j84335977825023_2_alg».proof.Proof.Gen.KernelIdeal
import proofs.«173776_j84335977825023_2_alg».proof.Proof.LibScatterSet
import Idealize.ShloMosaic.Lib.Pipeline.Value
import Idealize.ShloMosaic.Lib.ValueLayout
import Idealize.ShloMosaic.PureOps.Ideal.Laws

noncomputable section

namespace Cert.KernelIdeal.Weights

open Cert.KernelIdeal Cert.KernelIdeal.Gen Idealize.ShloMosaic Idealize.ShloMosaic.ValueIdx Cert.Lib

variable {F : FTy → Type} [FloatOps F]

/-- The start index `(r, r)` of a block write, as the host spells it: two one-element vectors joined. -/
def startVec (r : BitVec 32) : IVec S2 32 :=
  concatenate S2 0 [⟨S1, broadcastInDim S1 ![] bcast_S_S1 (constantI S_ 32 r)⟩,
    ⟨S1, broadcastInDim S1 ![] bcast_S_S1 (constantI S_ 32 r)⟩] concatenates_S1_S1_S2_d0

/-- Both of its entries are `r`. -/
theorem startVec_apply (r : BitVec 32) (k : S2.Idx) : startVec r k = r := by
  rw [eq_ix1 k]
  have hk : ((k 0 : Fin 2)).val = 0 ∨ ((k 0 : Fin 2)).val = 1 := by
    have h2 : ((k 0 : Fin 2)).val < 2 := (k 0).isLt
    omega
  unfold startVec
  rcases hk with h | h
  · exact (concatenate_pair_apply_left (t := S2) (s₁ := S1) (s₂ := S1) (0 : Fin 1) _ _ concatenates_S1_S1_S2_d0 _ rfl
      (ix1 (0 : Fin 1)) (fun b => by match b with | ⟨0, _⟩ => exact h.symm)).trans rfl
  · exact (concatenate_pair_apply_right (t := S2) (s₁ := S1) (s₂ := S1) (0 : Fin 1) _ _ concatenates_S1_S1_S2_d0 _ rfl rfl
      (ix1 (0 : Fin 1)) (fun b hb => by match b with | ⟨0, _⟩ => exact absurd rfl hb)
      (by show 0 + 1 = ((k 0 : Fin 2)).val; omega)).trans rfl

local notation "dblk" => scatter_S128x128_S2_S64x64_01_n_01_0

/-- Every position's window starts at `(r, r)`, -/
theorem start_eq (r : BitVec 32) (j : S64x64.Idx) (a : Fin 2) : ScatterDims.start dblk j (startVec r) a = r.toInt := by
  unfold ScatterDims.start
  rw [dif_pos (by fin_cases a <;> decide), startVec_apply]

/-- and the position's own coordinates are its coordinates in the window. -/
theorem window0_eq (j : S64x64.Idx) : ScatterDims.window dblk j 0 = (j 0).val := by
  unfold ScatterDims.window
  rw [dif_pos (by decide)]
  rfl
theorem window1_eq (j : S64x64.Idx) : ScatterDims.window dblk j 1 = (j 1).val := by
  unfold ScatterDims.window
  rw [dif_pos (by decide)]
  rfl

/-- `Wᵀ` in the matmul's input format. -/
def wT (W : FVec F S64x64 .f32) : FVec F S64x64 .bf16 :=
  truncf .bf16 (transpose S64x64 [1, 0] W transposes_S64x64_S64x64_1_0) bitsLt_bf16_f32

theorem wT_apply (W : FVec Ideal S64x64 .f32) (k c : Fin 64) : wT (F := Ideal) W (ix2 k c) = W (ix2 c k) :=
  transpose_ix2_apply (a := 64) (b := 64) W transposes_S64x64_S64x64_1_0 k c

/-- The 128 × 128 zeros the blocks are written into. -/
def zeros : FVec F S128x128 .bf16 := broadcastInDim S128x128 ![] bcast_S_S128x128 (constant S_ .bf16 0x0000#16)

theorem zeros_apply (i : S128x128.Idx) : zeros (F := Ideal) i = 0 := by
  unfold zeros
  rw [broadcastInDim_apply _ bcast_S_S128x128 _ i ix0 (fun a => a.elim0)]
  show Ideal.ofBits .bf16 0x0000#16 = 0
  simp [Ideal.ofBits, Ideal.ieee]

/-- The block-diagonal weight, as the host computes it. -/
def blockDiag (W : FVec F S64x64 .f32) : FVec F S128x128 .bf16 :=
  Host.scatter dblk (fun _ b => b)
    (Host.scatter dblk (fun _ b => b) zeros (startVec 0#32) (wT W)) (startVec 64#32) (wT W)

section Read

variable (W : FVec Ideal S64x64 .f32)

private theorem s0 (j : S64x64.Idx) (a : Fin 2) : ScatterDims.start dblk j (startVec 0#32) a = ((0 : ℕ) : ℤ) :=
  (start_eq 0#32 j a).trans (by decide)
private theorem s64 (j : S64x64.Idx) (a : Fin 2) : ScatterDims.start dblk j (startVec 64#32) a = ((64 : ℕ) : ℤ) :=
  (start_eq 64#32 j a).trans (by decide)

/-- The upper-left block is `Wᵀ`. -/
theorem blockDiag_upper_left (k c : Fin 64) :
    blockDiag (F := Ideal) W (ix2 (⟨k.val, by omega⟩ : Fin 128) (⟨c.val, by omega⟩ : Fin 128)) = W (ix2 c k) := by
  unfold blockDiag
  rw [scatter_block2_outside (A := 128) (B := 128) (a := 64) (b := 64) dblk (startVec 64#32) 64 64
    (fun j => s64 j 0) (fun j => s64 j 1) window0_eq window1_eq (by decide) (by decide) _ _ _ _
    (by have := k.isLt; simp only []; omega)]
  rw [scatter_block2_inside_at (A := 128) (B := 128) (a := 64) (b := 64) dblk (startVec 0#32) 0 0
    (fun j => s0 j 0) (fun j => s0 j 1) window0_eq window1_eq (by decide) (by decide) _ _ _ _ k c
    (by simp) (by simp)]
  exact wT_apply W k c

/-- The lower-right block is `Wᵀ` again. -/
theorem blockDiag_lower_right (k c : Fin 64) :
    blockDiag (F := Ideal) W (ix2 (⟨64 + k.val, by omega⟩ : Fin 128) (⟨64 + c.val, by omega⟩ : Fin 128)) = W (ix2 c k) := by
  unfold blockDiag
  rw [scatter_block2_inside_at (A := 128) (B := 128) (a := 64) (b := 64) dblk (startVec 64#32) 64 64
    (fun j => s64 j 0) (fun j => s64 j 1) window0_eq window1_eq (by decide) (by decide) _ _ _ _ k c rfl rfl]
  exact wT_apply W k c

/-- Above the lower-right block, right of the upper-left one: zero. -/
theorem blockDiag_upper_right (k c : Fin 64) :
    blockDiag (F := Ideal) W (ix2 (⟨k.val, by omega⟩ : Fin 128) (⟨64 + c.val, by omega⟩ : Fin 128)) = 0 := by
  unfold blockDiag
  rw [scatter_block2_outside (A := 128) (B := 128) (a := 64) (b := 64) dblk (startVec 64#32) 64 64
    (fun j => s64 j 0) (fun j => s64 j 1) window0_eq window1_eq (by decide) (by decide) _ _ _ _
    (by have := k.isLt; simp only []; omega)]
  rw [scatter_block2_outside (A := 128) (B := 128) (a := 64) (b := 64) dblk (startVec 0#32) 0 0
    (fun j => s0 j 0) (fun j => s0 j 1) window0_eq window1_eq (by decide) (by decide) _ _ _ _
    (by have := c.isLt; simp only []; omega)]
  exact zeros_apply _

/-- Below the upper-left block, left of the lower-right one: zero. -/
theorem blockDiag_lower_left (k c : Fin 64) :
    blockDiag (F := Ideal) W (ix2 (⟨64 + k.val, by omega⟩ : Fin 128) (⟨c.val, by omega⟩ : Fin 128)) = 0 := by
  unfold blockDiag
  rw [scatter_block2_outside (A := 128) (B := 128) (a := 64) (b := 64) dblk (startVec 64#32) 64 64
    (fun j => s64 j 0) (fun j => s64 j 1) window0_eq window1_eq (by decide) (by decide) _ _ _ _
    (by have := c.isLt; simp only []; omega)]
  rw [scatter_block2_outside (A := 128) (B := 128) (a := 64) (b := 64) dblk (startVec 0#32) 0 0
    (fun j => s0 j 0) (fun j => s0 j 1) window0_eq window1_eq (by decide) (by decide) _ _ _ _
    (by have := k.isLt; simp only []; omega)]
  exact zeros_apply _

end Read

end Cert.KernelIdeal.Weights

end
-- ==== Proof.Entry.lean ====
/-
  What the region finds in its two input arrays.

  Before the region the host lays the edge rows out two to a packed row — a reshape `[1600000, 64] → [800000, 128]`,
  which keeps every element's row-major position — and builds the block-diagonal weight from `W`.
-/
import proofs.«173776_j84335977825023_2_alg».proof.Proof.Gen.KernelIdeal.Frame
import proofs.«173776_j84335977825023_2_alg».proof.Proof.Weights
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The packed rows: the edge rows reshaped. -/
theorem rows_eq (c : Dev nD) :
    (V m c main_v0 : S800000x128.Idx → EReal)
      = shapeCast S800000x128 (m ((c : Thread nD τ).loc main_arg1)) shapeCasts_S1600000x64_S800000x128 := by
  show StableHlo.after hostOps0 (fun b => m (c, b)) (Proc.devRef .tc main_v0) = _
  after_results
  rfl

/-- The weight: the block-diagonal arrangement of `Wᵀ`. -/
theorem weight_eq (c : Dev nD) :
    (V m c main_v11 : S128x128.Idx → EReal) = Weights.blockDiag (F := Ideal) (m ((c : Thread nD τ).loc main_arg3)) := by
  show StableHlo.after hostOps0 (fun b => m (c, b)) (Proc.devRef .tc main_v11) = _
  after_results
  rfl

end Cert.KernelIdeal.Entry

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.Bridge.lean ====
/-
  Packing two edge rows into one 128-lane row and multiplying by the block-diagonal weight is projecting every
  edge row by `W`.

  Edge row `e` lies in packed row `P = e / 2`: in lanes `0 … 63` when `e` is even, in lanes `64 … 127` when it is odd (a
  reshape keeps row-major positions). Column `c` of the product of packed row `P` with the weight sums over all 128
  lanes, but the weight's column `c` is zero outside the diagonal block that contains `c`: half of the terms are a
  number times zero, and the other half are `Σ_d rf (e, d) · W (f, d)` for the edge row `e` and output feature `f` that
  `(P, c)` unpacks to. Multiplication by zero is zero for every extended real, so no finiteness is used.
-/
import proofs.«173776_j84335977825023_2_alg».proof.Proof.Weights
import proofs.«173776_j84335977825023_2_alg».proof.Proof.Payload
import proofs.«173776_j84335977825023_2_alg».proof.Proof.LibConcatCols
import Idealize.ShloMosaic.Lib.Pipeline.Value

noncomputable section

namespace Cert.KernelIdeal.Bridge

open Cert.KernelIdeal Cert.KernelIdeal.Gen Idealize.ShloMosaic Idealize.ShloMosaic.ValueIdx Cert.Lib
open Cert.KernelIdeal.Payload (packedProduct)
open Cert.KernelIdeal.Weights (blockDiag)
open scoped BigOperators

variable (rf : FVec Ideal S1600000x64 .f32) (W : FVec Ideal S64x64 .f32)

/-- The edge rows laid out two to a packed row. -/
def packed : S800000x128.Idx → EReal := shapeCast S800000x128 rf shapeCasts_S1600000x64_S800000x128

/-- The projection of every edge row by `W`: entry `(e, f)` is `Σ_d rf (e, d) · W (f, d)`. -/
def edgeProj : S1600000x64.Idx → EReal := fun i => ∑ d : Fin 64, rf (ix2 (i 0) d) * W (ix2 (i 1) d)

/-- The low lanes of packed row `P` are edge row `2P`, -/
theorem packed_lo (P : Fin 800000) (e : Fin 1600000) (he : e.val = 2 * P.val) (d : Fin 64) :
    packed rf (ix2 P (⟨d.val, by omega⟩ : Fin 128)) = rf (ix2 e d) := by
  unfold packed
  refine shapeCast_apply rf shapeCasts_S1600000x64_S800000x128 _ _ ?_
  rw [Shape.rowMajor_val_two, Shape.rowMajor_val_two]
  show e.val * 64 + d.val = P.val * 128 + d.val
  omega

/-- and the high lanes are edge row `2P + 1`. -/
theorem packed_hi (P : Fin 800000) (e : Fin 1600000) (he : e.val = 2 * P.val + 1) (d : Fin 64) :
    packed rf (ix2 P (⟨64 + d.val, by omega⟩ : Fin 128)) = rf (ix2 e d) := by
  unfold packed
  refine shapeCast_apply rf shapeCasts_S1600000x64_S800000x128 _ _ ?_
  rw [Shape.rowMajor_val_two, Shape.rowMajor_val_two]
  show e.val * 64 + d.val = P.val * 128 + (64 + d.val)
  omega

/-- A low column of the product: only the upper-left block of the weight contributes. -/
theorem product_even (P : Fin 800000) (e : Fin 1600000) (he : e.val = 2 * P.val) (f : Fin 64) :
    packedProduct (packed rf) (blockDiag (F := Ideal) W) (ix2 P (⟨f.val, by omega⟩ : Fin 128))
      = ∑ d : Fin 64, rf (ix2 e d) * W (ix2 f d) := by
  show ∑ k : Fin 128, packed rf (ix2 P k) * blockDiag (F := Ideal) W (ix2 k (⟨f.val, by omega⟩ : Fin 128)) = _
  refine (sum_fin_add (a := 64) (b := 64) rfl _).trans ?_
  have hlo : ∀ k : Fin 64, packed rf (ix2 P (⟨k.val, by omega⟩ : Fin 128))
      * blockDiag (F := Ideal) W (ix2 (⟨k.val, by omega⟩ : Fin 128) (⟨f.val, by omega⟩ : Fin 128))
      = rf (ix2 e k) * W (ix2 f k) := fun k => by
    rw [packed_lo rf P e he k, Weights.blockDiag_upper_left W k f]
  have hhi : ∀ k : Fin 64, packed rf (ix2 P (⟨64 + k.val, by omega⟩ : Fin 128))
      * blockDiag (F := Ideal) W (ix2 (⟨64 + k.val, by omega⟩ : Fin 128) (⟨f.val, by omega⟩ : Fin 128)) = 0 := fun k => by
    rw [Weights.blockDiag_lower_left W k f, mul_zero]
  exact (congrArg₂ (fun a b : EReal => a + b) (Finset.sum_congr rfl fun k _ => hlo k)
    (Finset.sum_eq_zero fun k _ => hhi k)).trans (add_zero _)

/-- A high column of the product: only the lower-right block contributes. -/
theorem product_odd (P : Fin 800000) (e : Fin 1600000) (he : e.val = 2 * P.val + 1) (f : Fin 64) :
    packedProduct (packed rf) (blockDiag (F := Ideal) W) (ix2 P (⟨64 + f.val, by omega⟩ : Fin 128))
      = ∑ d : Fin 64, rf (ix2 e d) * W (ix2 f d) := by
  show ∑ k : Fin 128, packed rf (ix2 P k) * blockDiag (F := Ideal) W (ix2 k (⟨64 + f.val, by omega⟩ : Fin 128)) = _
  refine (sum_fin_add (a := 64) (b := 64) rfl _).trans ?_
  have hlo : ∀ k : Fin 64, packed rf (ix2 P (⟨k.val, by omega⟩ : Fin 128))
      * blockDiag (F := Ideal) W (ix2 (⟨k.val, by omega⟩ : Fin 128) (⟨64 + f.val, by omega⟩ : Fin 128)) = 0 := fun k => by
    rw [Weights.blockDiag_upper_right W k f, mul_zero]
  have hhi : ∀ k : Fin 64, packed rf (ix2 P (⟨64 + k.val, by omega⟩ : Fin 128))
      * blockDiag (F := Ideal) W (ix2 (⟨64 + k.val, by omega⟩ : Fin 128) (⟨64 + f.val, by omega⟩ : Fin 128))
      = rf (ix2 e k) * W (ix2 f k) := fun k => by
    rw [packed_hi rf P e he k, Weights.blockDiag_lower_right W k f]
  exact (congrArg₂ (fun a b : EReal => a + b) (Finset.sum_eq_zero fun k _ => hlo k)
    (Finset.sum_congr rfl fun k _ => hhi k)).trans (zero_add _)

/-- The product, unpacked back to one edge row per row, is the projection by `W`. -/
theorem unpacked_eq :
    shapeCast S1600000x64 (packedProduct (packed rf) (blockDiag (F := Ideal) W)) shapeCasts_S800000x128_S1600000x64
      = edgeProj rf W := by
  funext i
  obtain ⟨e, f, rfl⟩ : ∃ (e : Fin 1600000) (f : Fin 64), i = ix2 e f := ⟨i 0, i 1, eq_ix2 i⟩
  have hP : e.val / 2 < 800000 := by omega
  have he : e.val % 2 = 0 ∨ e.val % 2 = 1 := by omega
  show _ = ∑ d : Fin 64, rf (ix2 e d) * W (ix2 f d)
  rcases he with he | he
  · refine (shapeCast_apply _ shapeCasts_S800000x128_S1600000x64 (ix2 e f)
      (ix2 (⟨e.val / 2, hP⟩ : Fin 800000) (⟨f.val, by omega⟩ : Fin 128)) ?_).trans ?_
    · rw [Shape.rowMajor_val_two, Shape.rowMajor_val_two]
      show e.val / 2 * 128 + f.val = e.val * 64 + f.val
      omega
    · exact product_even rf W ⟨e.val / 2, hP⟩ e (by show e.val = 2 * (e.val / 2); omega) f
  · refine (shapeCast_apply _ shapeCasts_S800000x128_S1600000x64 (ix2 e f)
      (ix2 (⟨e.val / 2, hP⟩ : Fin 800000) (⟨64 + f.val, by omega⟩ : Fin 128)) ?_).trans ?_
    · rw [Shape.rowMajor_val_two, Shape.rowMajor_val_two]
      show e.val / 2 * 128 + (64 + f.val) = e.val * 64 + f.val
      omega
    · exact product_odd rf W ⟨e.val / 2, hP⟩ e (by show e.val = 2 * (e.val / 2) + 1; omega) f

end Cert.KernelIdeal.Bridge

end
-- ==== Proof.Tail.lean ====
/-
  Everything the kernel's program does after the region, as one function of the projected edge rows `r`.

  With `src` the source-node index of each edge (a negative index counted from the end), the message of edge `e` is
  `(r e + feature[src e]) · (ci[src e] · drop_mask e)`; the messages are summed into their destination nodes and the
  sums scaled by `ci`. The reference does literally the same after its own projection, so this function is never
  opened: the two programs agree as soon as their `r` agree.
-/
import proofs.«173776_j84335977825023_2_alg».proof.Proof.Gen.KernelIdeal.Frame
import Idealize.ShloMosaic.Lib.StableHlo.Run
import Idealize.ShloMosaic.PureOps.Ideal.Laws

noncomputable section

namespace Cert.KernelIdeal.Tail

open Cert.KernelIdeal Cert.KernelIdeal.Gen Idealize.ShloMosaic Idealize.ShloMosaic.TcCoe
open Idealize.SL.Sem Idealize.ShloMosaic.StableHlo

variable {F : FTy → Type} [FloatOps F]

/-- The source-node index of every edge: `src_idx`, with `100000` added where it is negative. -/
def srcIdx (a5 : (⟨S1600000, .i32⟩ : BufTy).Contents (Elt F)) : (⟨S1600000, .i32⟩ : BufTy).Contents (Elt F) :=
  select (cmpi .slt a5 (broadcastInDim S1600000 ![] bcast_S_S1600000 (constantI S_ 32 0#32)))
    (addi a5 (broadcastInDim S1600000 ![] bcast_S_S1600000 (constantI S_ 32 100000#32))) a5

/-- Messages from the projected edge rows `r`, summed into destination nodes, scaled by `ci`. -/
def tail (r : (⟨S1600000x64, .f32⟩ : BufTy).Contents (Elt F)) (a0 : (⟨S100000x64, .f32⟩ : BufTy).Contents (Elt F))
    (a2 : (⟨S100000x1, .f32⟩ : BufTy).Contents (Elt F)) (a4 : (⟨S1600000x1, .f32⟩ : BufTy).Contents (Elt F))
    (a5 a6 : (⟨S1600000, .i32⟩ : BufTy).Contents (Elt F)) : (⟨S100000x64, .f32⟩ : BufTy).Contents (Elt F) :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 a6)
      (mulf
        (addf r
          (Host.gather gather_S100000x64_S1600000x1_S1600000x64_1_0_n_n_0_1_164 a0
            (broadcastInDim S1600000x1 ![0] bcast_S1600000_S1600000x1_0 (srcIdx a5))))
        (broadcastInDim S1600000x64 ![0, 1] bcast_S1600000x1_S1600000x64_0_1
          (mulf
            (Host.gather gather_S100000x1_S1600000x1_S1600000x1_1_0_n_n_0_1_11 a2
              (broadcastInDim S1600000x1 ![0] bcast_S1600000_S1600000x1_0 (srcIdx a5)))
            a4))))
    (broadcastInDim S100000x64 ![0, 1] bcast_S100000x1_S100000x64_0_1 a2)

variable (m : (ℓ : Loc nD τ sig) → Buf (Elt Ideal) ℓ)

set_option maxHeartbeats 4000000 in
/-- The kernel program's result: the tail of the region's output array unpacked to one edge row per row, over the
    argument arrays as launched. -/
theorem result_eq (c : Dev nD) :
    Pipeline.afterTail₀ cfgs (dats m) 0 (V0 m) [hostOps1] c main_v36
      = tail (F := Ideal)
          (shapeCast S1600000x64 ((dats m 0 c).arrAt 2 cfg0.N) shapeCasts_S800000x128_S1600000x64)
          (m ((c : Thread nD τ).loc main_arg0)) (m ((c : Thread nD τ).loc main_arg2))
          (m ((c : Thread nD τ).loc main_arg4)) (m ((c : Thread nD τ).loc main_arg5))
          (m ((c : Thread nD τ).loc main_arg6)) := by
  have e12 := Pipeline.withArrays_arr spec0 launch0.win.arr_inj c (V0 m c)
    (fun w => (dats m 0 c).arrAt w (cfgs 0).N) 2
  have e0 := (Pipeline.withArrays_of_ne spec0 c (V0 m c) (fun w => (dats m 0 c).arrAt w (cfgs 0).N) main_arg0
    (by decide)).trans (V_main_arg0 m c)
  have e2 := (Pipeline.withArrays_of_ne spec0 c (V0 m c) (fun w => (dats m 0 c).arrAt w (cfgs 0).N) main_arg2
    (by decide)).trans (V_main_arg2 m c)
  have e4 := (Pipeline.withArrays_of_ne spec0 c (V0 m c) (fun w => (dats m 0 c).arrAt w (cfgs 0).N) main_arg4
    (by decide)).trans (V_main_arg4 m c)
  have e5 := (Pipeline.withArrays_of_ne spec0 c (V0 m c) (fun w => (dats m 0 c).arrAt w (cfgs 0).N) main_arg5
    (by decide)).trans (V_main_arg5 m c)
  have e6 := (Pipeline.withArrays_of_ne spec0 c (V0 m c) (fun w => (dats m 0 c).arrAt w (cfgs 0).N) main_arg6
    (by decide)).trans (V_main_arg6 m c)
  unfold Pipeline.afterTail₀
  show StableHlo.after hostOps1 _ (Proc.devRef .tc main_v36) = _
  after_results
  show tail (F := Ideal)
      (shapeCast S1600000x64 (Pipeline.withArrays spec0 c (V0 m c) (fun w => (dats m 0 c).arrAt w (cfgs 0).N)
        (Proc.devRef .tc (Pipeline.arrRef spec0 2))) shapeCasts_S800000x128_S1600000x64)
      (Pipeline.withArrays spec0 c (V0 m c) (fun w => (dats m 0 c).arrAt w (cfgs 0).N) (Proc.devRef .tc main_arg0))
      (Pipeline.withArrays spec0 c (V0 m c) (fun w => (dats m 0 c).arrAt w (cfgs 0).N) (Proc.devRef .tc main_arg2))
      (Pipeline.withArrays spec0 c (V0 m c) (fun w => (dats m 0 c).arrAt w (cfgs 0).N) (Proc.devRef .tc main_arg4))
      (Pipeline.withArrays spec0 c (V0 m c) (fun w => (dats m 0 c).arrAt w (cfgs 0).N) (Proc.devRef .tc main_arg5))
      (Pipeline.withArrays spec0 c (V0 m c) (fun w => (dats m 0 c).arrAt w (cfgs 0).N) (Proc.devRef .tc main_arg6))
    = _
  rw [e12, e0, e2, e4, e5, e6]

end Cert.KernelIdeal.Tail

end
-- ==== Proof.Result.lean ====
/-
  The kernel program's run, read back: its result array as one function of the argument arrays.

  The region leaves the packed product of the rows and the weight it finds; the rows are the edge rows two to a
  packed row and the weight is the block-diagonal arrangement of `Wᵀ`; unpacked, the product is the projection of
  every edge row by `W`; and the rest of the program is the shared tail of that projection.
-/
import proofs.«173776_j84335977825023_2_alg».proof.Proof.Region
import proofs.«173776_j84335977825023_2_alg».proof.Proof.Entry
import proofs.«173776_j84335977825023_2_alg».proof.Proof.Bridge
import proofs.«173776_j84335977825023_2_alg».proof.Proof.Tail

noncomputable section

namespace Cert.KernelIdeal.Result

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)

/-- The program's result on core `c`: the tail of the projection of the edge rows by `W`. -/
def result (c : Dev nD) : Buf (Elt Ideal) ((c.tc : Thread nD τ).loc main_v36) :=
  Tail.tail (F := Ideal)
    (Bridge.edgeProj (m ((c : Thread nD τ).loc main_arg1)) (m ((c : Thread nD τ).loc main_arg3)))
    (m ((c : Thread nD τ).loc main_arg0)) (m ((c : Thread nD τ).loc main_arg2))
    (m ((c : Thread nD τ).loc main_arg4)) (m ((c : Thread nD τ).loc main_arg5))
    (m ((c : Thread nD τ).loc main_arg6))

/-- The region's output, unpacked to one edge row per row, is the projection of the edge rows by `W`. -/
theorem unpacked_region (c : Dev nD) :
    shapeCast S1600000x64 ((dats m 0 c).arrAt 2 cfg0.N) shapeCasts_S800000x128_S1600000x64
      = Bridge.edgeProj (m ((c : Thread nD τ).loc main_arg1)) (m ((c : Thread nD τ).loc main_arg3)) := by
  rw [Region.final m c, Entry.rows_eq m c, Entry.weight_eq m c]
  exact Bridge.unpacked_eq _ _

/-- Every weakly fair execution of the kernel's program ends with its result at `result` and its arguments
    unchanged. -/
theorem run : θ_run defs (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(((h c).2 main_v36 (Pipeline.mem_restRefs_of main_v36 (by decide) (by decide))).trans (Tail.result_eq m c)).trans
        (congrArg (fun r => Tail.tail (F := Ideal) r (m ((c : Thread nD τ).loc main_arg0))
          (m ((c : Thread nD τ).loc main_arg2)) (m ((c : Thread nD τ).loc main_arg4))
          (m ((c : Thread nD τ).loc main_arg5)) (m ((c : Thread nD τ).loc main_arg6))) (unpacked_region m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefSide.lean ====
/-
  The reference's first step: `einsum('ed,fd->ef', review_feat, W)`, a contraction of axis 1 with axis 1, is the
  projection of every edge row by `W` — entry `(e, f)` is `Σ_d rf (e, d) · W (f, d)`.
-/
import proofs.«173776_j84335977825023_2_alg».proof.Proof.Gen.ReferenceIdeal.Read
import proofs.«173776_j84335977825023_2_alg».proof.Proof.Bridge

noncomputable section

namespace Cert.ReferenceIdeal.RefValue

open Cert.ReferenceIdeal Cert.ReferenceIdeal.Gen Idealize.ShloMosaic Idealize.ShloMosaic.ValueIdx
open scoped BigOperators

/-- The host's contraction, entry by entry, is the projection the kernel's packed product unpacks to. -/
theorem proj_eq (rf : FVec Ideal S1600000x64 .f32) (W : FVec Ideal S64x64 .f32) :
    Host.dotGeneral dot_S1600000x64_S64x64_S1600000x64_1_1_0_0_n_n none rf W
      = Cert.KernelIdeal.Bridge.edgeProj rf W := by
  funext i
  refine (Read.val_main_v0_apply rf W i).trans ?_
  refine Finset.sum_congr rfl fun k _ => ?_
  refine congrArg₂ (fun a b : EReal => a * b) (congrArg rf ?_) (congrArg W ?_)
  · funext a
    match a with
    | ⟨0, _⟩ => rfl
    | ⟨1, _⟩ => rfl
  · funext a
    match a with
    | ⟨0, _⟩ => rfl
    | ⟨1, _⟩ => rfl

end Cert.ReferenceIdeal.RefValue

end
-- ==== Proof.lean ====
/- The kernel computes `r = review_feat · Wᵀ` two edge rows at a time: the `[1600000, 64]` edge rows are laid out as
   `[800000, 128]`, multiplied on a grid of 80 blocks of rows by the 128 × 128 matrix with `Wᵀ` twice on its diagonal and
   zeros elsewhere, and laid out back. The reference contracts `review_feat` with `W` directly. On the extended reals
   the two agree entry by entry — the off-diagonal terms are a number times zero — and what follows `r` (the gather
   of source-node features, the dropout scale, the sum into destination nodes, the scale by `ci`) is the same
   function of `r` in both programs (Proof/Tail.lean), never opened.
   Proof/Payload.lean: one grid point's product at an index. Proof/Region.lean: the region's output array as one
   function of the arrays it finds. Proof/Weights.lean, Proof/Entry.lean: what those arrays are. Proof/Bridge.lean:
   the packed product unpacked is the projection by `W`. Proof/RefSide.lean: so is the reference's contraction.
   Proof/Result.lean: the kernel program's run with its result named. The frames of the two kernel programs are the
   generated ones; the reference's frame is its generated run with the result dropped; the idealization rewrote
   nothing, so `preserves` is `True`. -/
import proofs.«173776_j84335977825023_2_alg».proof.Defs
import proofs.«173776_j84335977825023_2_alg».proof.Proof.Gen.Kernel
import proofs.«173776_j84335977825023_2_alg».proof.Proof.Gen.Kernel.Skeleton
import proofs.«173776_j84335977825023_2_alg».proof.Proof.Gen.Kernel.Launch
import proofs.«173776_j84335977825023_2_alg».proof.Proof.Gen.Kernel.Points
import proofs.«173776_j84335977825023_2_alg».proof.Proof.Gen.Kernel.Frame
import proofs.«173776_j84335977825023_2_alg».proof.Proof.Gen.KernelIdeal
import proofs.«173776_j84335977825023_2_alg».proof.Proof.Gen.KernelIdeal.Skeleton
import proofs.«173776_j84335977825023_2_alg».proof.Proof.Gen.KernelIdeal.Launch
import proofs.«173776_j84335977825023_2_alg».proof.Proof.Gen.KernelIdeal.Points
import proofs.«173776_j84335977825023_2_alg».proof.Proof.Gen.KernelIdeal.Frame
import proofs.«173776_j84335977825023_2_alg».proof.Proof.Gen.ReferenceIdeal
import proofs.«173776_j84335977825023_2_alg».proof.Proof.Gen.ReferenceIdeal.Run
import proofs.«173776_j84335977825023_2_alg».proof.Proof.Gen.ReferenceIdeal.Read
import proofs.«173776_j84335977825023_2_alg».proof.Proof.Gen.Pre_finite_inputs
import proofs.«173776_j84335977825023_2_alg».proof.Proof.Result
import proofs.«173776_j84335977825023_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared tail of the projection of the edge rows by `W`: the kernel's by its read-back
    run, the reference's by its generated run, whose contraction is that projection. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.RefValue.proj_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
